-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S512x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x4096.size a
  hwx0_2 : ∀ i : grid0.Coords, EltTy.bits .f32 = 32 ∨ (Rect.block (s := S8192x4096) S512x1024.size (cc0_transform_2 i) (hinb0_2 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Product.lean ====
/-
  The matrix product that both programs compute, as ONE function of the two argument arrays, and the law that
  joins the kernel's two passes to it.

  The kernel splits each entry of x into a high part and a residual, x = hi + (x − hi), and multiplies each part by H
  in its own pass. On the extended reals a change of float format is the identity, so hi = x and the residual is
  x − x. For a REAL x that is 0, the second pass adds Σ_k 0 · H(k, c) = 0, and the two passes together are the single
  product Σ_k x(r, k) · H(k, c). For an infinite x the residual ∞ − ∞ is not 0: the law is stated for real entries of
  x only. Nothing is asked of H, since 0 · h = 0 for every extended real h.
-/
import Idealize.ShloMosaic.PureOps.Ideal
import Idealize.ShloMosaic.Lib.ValueIdx

noncomputable section

namespace Cert.MatProduct

open Idealize.ShloMosaic Idealize.ShloMosaic.ValueIdx

/-- Entry (r, c) of the product of an [8192, 4096] array x with a [4096, 4096] array h: the sum over k of
    x(r, k) · h(k, c), on the extended reals. -/
def product (x : (⟨2, ![8192, 4096]⟩ : Shape).Idx → EReal) (h : (⟨2, ![4096, 4096]⟩ : Shape).Idx → EReal) :
    (⟨2, ![8192, 4096]⟩ : Shape).Idx → EReal :=
  fun i => ∑ k : Fin 4096, x (ix2 (i 0) k) * h (ix2 k (i 1))

/-- The product at an entry given by its row r and column c. -/
theorem product_apply (x : (⟨2, ![8192, 4096]⟩ : Shape).Idx → EReal) (h : (⟨2, ![4096, 4096]⟩ : Shape).Idx → EReal)
    (r : Fin 8192) (c : Fin 4096) : product x h (ix2 r c) = ∑ k : Fin 4096, x (ix2 r k) * h (ix2 k c) := rfl

/-- A real number minus itself is zero on the extended reals. (An infinity minus itself is not.) -/
theorem sub_self_of_real {a : EReal} (ha : ∃ r : ℝ, a = (r : EReal)) : a - a = 0 := by
  obtain ⟨r, rfl⟩ := ha
  rw [← EReal.coe_sub, sub_self, EReal.coe_zero]

/-- THE LAW: with every a(k) real, the product pass Σ a·b plus the residual pass Σ (a − a)·b is the product pass
    alone. Each residual term is 0 · b(k) = 0, whatever b(k) is. -/
theorem sum_add_residual {ι : Type} [Fintype ι] (a b : ι → EReal) (ha : ∀ k, ∃ r : ℝ, a k = (r : EReal)) :
    (∑ k, a k * b k) + ∑ k, (a k - a k) * b k = ∑ k, a k * b k := by
  have hz : ∀ k, (a k - a k) * b k = 0 := fun k => by rw [sub_self_of_real (ha k), zero_mul]
  rw [Finset.sum_congr rfl (fun k _ => hz k), Finset.sum_const_zero, add_zero]

end Cert.MatProduct

end
-- ==== Proof.ReferenceProduct.lean ====
/-
  The reference is one host matrix product, and at the extended reals its result array is `product x h`: entry (r, c)
  is the sum over k of x(r, k) · h(k, c). The read-at-an-index lemma of the reference's one operation already states the
  entry as that sum over the operation's own operand indices; here those indices are identified with (r, k) and (k, c).
-/
import proofs.«110413_j4904852652181_2_alg».proof.Proof.Gen.ReferenceIdeal.Read
import proofs.«110413_j4904852652181_2_alg».proof.Proof.Product

noncomputable section

namespace Cert.ReferenceIdeal.RefProduct

open Cert.ReferenceIdeal Cert.ReferenceIdeal.Read Idealize.ShloMosaic Idealize.ShloMosaic.ValueIdx

/-- The left operand's index for output entry i and contraction coordinate k is (row of i, k). -/
theorem left_index (i : S8192x4096.Idx) (k : Fin 4096) : lidx_main_v0 i k = ix2 (i 0) k :=
  funext fun a => Fin.ext (by match a with | ⟨0, _⟩ => rfl | ⟨1, _⟩ => rfl)

/-- The right operand's index is (k, column of i). -/
theorem right_index (i : S8192x4096.Idx) (k : Fin 4096) : ridx_main_v0 i k = ix2 k (i 1) :=
  funext fun a => Fin.ext (by match a with | ⟨0, _⟩ => rfl | ⟨1, _⟩ => rfl)

/-- The reference's result, as a function of its two arguments, is their product. -/
theorem stage_eq_product (x : (⟨S8192x4096, .f32⟩ : BufTy).Contents (Elt Ideal)) (h : (⟨S4096x4096, .f32⟩ : BufTy).Contents (Elt Ideal)) :
    val_main_v0 (F := Ideal) x h = Cert.MatProduct.product x h := by
  funext i
  rw [val_main_v0_apply]
  unfold Cert.MatProduct.product
  simp only [left_index, right_index]
  rfl

end Cert.ReferenceIdeal.RefProduct

end
-- ==== Proof.BlockProduct.lean ====
/-
  What the kernel's body computes from one [512, 4096] block of x and one [4096, 1024] block of H, read at an entry
  (p, q) of its [512, 1024] result, on the extended reals.

  The body forms hi = x (a format change is the identity), the residual x − hi = x − x, multiplies each by the H block
  into a zero accumulator, and adds the two results. A matrix product into a zero accumulator at (p, q) is the sum over
  k of left(p, k) · right(k, q); so the body's entry is Σ_k x(p, k)·h(k, q) + Σ_k (x(p, k) − x(p, k))·h(k, q), and for a
  block of real numbers that is Σ_k x(p, k)·h(k, q) by the law of Product.lean.
-/
import proofs.«110413_j4904852652181_2_alg».proof.Proof.Gen.KernelIdeal.Skeleton
import proofs.«110413_j4904852652181_2_alg».proof.Proof.Product
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-- The left operand's row coordinate is the output entry's row. -/
theorem left_row (j : S512x1024.Idx) (q : dot_S512x4096_S4096x1024_S512x1024_1_0_0_1_n_n.contr.Idx) :
    (dot_S512x4096_S4096x1024_S512x1024_1_0_0_1_n_n.lhsIdx j q 0).val = (j 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl

/-- The right operand's column coordinate is the output entry's column. -/
theorem right_col (j : S512x1024.Idx) (q : dot_S512x4096_S4096x1024_S512x1024_1_0_0_1_n_n.contr.Idx) :
    (dot_S512x4096_S4096x1024_S512x1024_1_0_0_1_n_n.rhsIdx j q 1).val = (j 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- A block product into the zero accumulator, at entry (p, q): the sum over k of left(p, k) · right(k, q). -/
theorem matmul_zero_apply (l : FVec Ideal S512x4096 .bf16) (r : FVec Ideal S4096x1024 .bf16) (p : Fin 512) (q : Fin 1024) :
    matmul dot_S512x4096_S4096x1024_S512x1024_1_0_0_1_n_n none l r (constant (F := Ideal) S512x1024 .f32 0x00000000#32) (ix2 p q)
      = ∑ k : Fin 4096, l (ix2 p k) * r (ix2 k q) := by
  simp only [matmul]
  rw [Ideal.matmul_constant_zero_apply, ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q) ((contrEquiv1 dot_S512x4096_S4096x1024_S512x1024_1_0_0_1_n_n 4096 rfl rfl).symm k) = ix2 p k := funext fun a => Fin.ext (by
    match a with
    | ⟨0, _⟩ => exact left_row _ _
    | ⟨1, _⟩ => exact (dot_S512x4096_S4096x1024_S512x1024_1_0_0_1_n_n.lhsIdx_val_of_single rfl (ix2 p q) _).trans hk)
  have er : dot_S512x4096_S4096x1024_S512x1024_1_0_0_1_n_n.rhsIdx (ix2 p q) ((contrEquiv1 dot_S512x4096_S4096x1024_S512x1024_1_0_0_1_n_n 4096 rfl rfl).symm k) = ix2 k q := funext fun a => Fin.ext (by
    match a with
    | ⟨0, _⟩ => exact (dot_S512x4096_S4096x1024_S512x1024_1_0_0_1_n_n.rhsIdx_val_of_single rfl (ix2 p q) _).trans hk
    | ⟨1, _⟩ => exact right_col _ _)
  rw [el, er]

/-- THE BODY'S RESULT AT AN ENTRY: for a block of x whose entries are all real, entry (p, q) of what the body stores is
    the sum over k of x(p, k) · h(k, q) — the residual pass contributes nothing. -/
theorem payload_apply (x0 : Vec Ideal S512x4096 .f32) (x1 : Vec Ideal S4096x1024 .bf16)
    (hx : ∀ y : S512x4096.Idx, ∃ r : ℝ, (x0 y : EReal) = (r : EReal)) (p : Fin 512) (q : Fin 1024) :
    k0_pay1 (F := Ideal) x0 x1 (ix2 p q) = ∑ k : Fin 4096, (x0 (ix2 p k) : EReal) * (x1 (ix2 k q) : EReal) := by
  unfold k0_pay1
  rw [addf_apply, matmul_zero_apply, matmul_zero_apply]
  simp only [shapeCast_self, truncf_apply, subf_apply]
  exact Cert.MatProduct.sum_add_residual _ _ (fun k => hx _)

/-- A BLOCK'S RESULT IS A BLOCK OF THE PRODUCT. Let X be an [8192, 4096] array of real numbers and Hh a [4096, 4096] array;
    let x0 be rows a·512 … a·512 + 511 of X and x1 be columns b·1024 … b·1024 + 1023 of Hh (the two hypotheses say so
    entry by entry). Then entry y of the body's result is entry i of the product of X and Hh, where i is y moved by
    (a·512, b·1024): both are the sum over k of X(a·512 + p, k) · Hh(k, b·1024 + q). -/
theorem payload_eq_product (X : (⟨2, ![8192, 4096]⟩ : Shape).Idx → EReal) (Hh : (⟨2, ![4096, 4096]⟩ : Shape).Idx → EReal)
    (hX : ∀ i, ∃ r : ℝ, X i = (r : EReal))
    (x0 : Vec Ideal S512x4096 .f32) (x1 : Vec Ideal S4096x1024 .bf16) (a b : ℕ)
    (h0 : ∀ (u : S512x4096.Idx) (v : (⟨2, ![8192, 4096]⟩ : Shape).Idx), (v 0).val = a * 512 + (u 0).val → (v 1).val = (u 1).val → (x0 u : EReal) = X v)
    (h1 : ∀ (u : S4096x1024.Idx) (v : (⟨2, ![4096, 4096]⟩ : Shape).Idx), (v 0).val = (u 0).val → (v 1).val = b * 1024 + (u 1).val → (x1 u : EReal) = Hh v)
    (y : S512x1024.Idx) (i : (⟨2, ![8192, 4096]⟩ : Shape).Idx)
    (hi0 : (i 0).val = a * 512 + (y 0).val) (hi1 : (i 1).val = b * 1024 + (y 1).val) :
    k0_pay1 (F := Ideal) x0 x1 y = Cert.MatProduct.product X Hh i := by
  obtain ⟨p, q, rfl⟩ : ∃ (p : Fin 512) (q : Fin 1024), y = ix2 p q := ⟨y 0, y 1, eq_ix2 y⟩
  obtain ⟨r, s, rfl⟩ : ∃ (r : Fin 8192) (s : Fin 4096), i = ix2 r s := ⟨i 0, i 1, eq_ix2 i⟩
  have hr : r.val = a * 512 + p.val := hi0
  have hs : s.val = b * 1024 + q.val := hi1
  have hreal : ∀ u : S512x4096.Idx, ∃ t : ℝ, (x0 u : EReal) = (t : EReal) := fun u => by
    have hu0 : (u 0).val < 512 := (u 0).isLt
    have hu1 : (u 1).val < 4096 := (u 1).isLt
    rw [h0 u (ix2 ⟨a * 512 + (u 0).val, by have := r.isLt; have := p.isLt; omega⟩ ⟨(u 1).val, hu1⟩) rfl rfl]
    exact hX _
  rw [payload_apply x0 x1 hreal p q, Cert.MatProduct.product_apply]
  refine Finset.sum_congr rfl fun k _ => ?_
  rw [h0 (ix2 p k) (ix2 r k) hr rfl, h1 (ix2 k q) (ix2 k s) rfl hs]

end Cert.KernelIdeal.Block

end
-- ==== Proof.FiniteInput.lean ====
/-
  What the precondition gives: every entry of the first argument x is a real number.

  The precondition is the conjunction of two tests, one per argument, each "all entries satisfy |a| < +∞". On the
  extended reals |a| is max a (−a), which is +∞ exactly at the two infinities; so an entry that passes the test is
  neither, and is a real. Only x's half is used: the law that joins the kernel's two passes asks nothing of H.
-/
import proofs.«110413_j4904852652181_2_alg».proof.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Idealize.ShloMosaic

/-- The rank-0 shape has one index. -/
instance : Subsingleton S_.Idx := ⟨fun a b => funext fun d => d.elim0⟩

/-- The word the test compares against is +∞. -/
theorem inf_word : Ideal.ofBits .f32 0x7F800000#32 = (⊤ : EReal) := by simp [Ideal.ofBits, Ideal.ieee]

/-- An extended real whose absolute value max a (−a) is below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- Under the precondition every entry of x is a real number. -/
theorem real_of_pre [Facts] (x : FVec Ideal S8192x4096 .f32) (h : FVec Ideal S4096x4096 .f32)
    (hp : fn (F := Ideal) x h = fun _ => 1#1) (i : S8192x4096.Idx) : ∃ r : ℝ, (x i : EReal) = (r : EReal) := by
  have h0 := congrFun hp ValueIdx.ix0
  dsimp only [fn] at h0
  obtain ⟨h1, -⟩ := IntOp.andi_eq_one.1 h0
  have h2 := Host.reduce_andi_all _ _ _ _ _ h1 i
  have h3 : Ideal.cmp .olt (max (x i : EReal) (-(x i : EReal))) (Ideal.ofBits .f32 0x7F800000#32) = 1#1 := h2
  rw [inf_word] at h3
  unfold Ideal.cmp at h3
  refine real_of_abs_lt_top _ ?_
  by_contra hn
  simp [hn] at h3

end Cert.Pre_finite_inputs.Finite

end
-- ==== Proof.KernelProduct.lean ====
/-
  The kernel's result array, after the run, is the product of its two argument arrays — when every entry of x is real.

  The grid has 4 × 16 points; point (n, r) reads rows r·512 … r·512 + 511 of x (all 4096 columns), columns
  n·1024 … n·1024 + 1023 of H (all 4096 rows), and writes the [512, 1024] block (r, n) of the result. Before the grid the
  host converts H to a narrower float format, which on the extended reals changes nothing: the array the grid reads is H.
  By BlockProduct.lean what a point writes is that block of the product of x and H; the 64 blocks tile the [8192, 4096]
  result (entry (i, j) lies in block (i / 512, j / 1024)), so the whole array ends holding the product.
-/
import proofs.«110413_j4904852652181_2_alg».proof.Proof.Gen.KernelIdeal.Value
import proofs.«110413_j4904852652181_2_alg».proof.Proof.BlockProduct
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

theorem origin : (![0, 0] : Fin 2 → Nat) = fun _ => 0 := funext fun a => by fin_cases a <;> rfl

/-- The product of the two argument arrays as launched: what the result array is to hold. -/
abbrev result (c : Dev nD) : Buf (Elt Ideal) ((c : Thread nD τ).loc main_v1) :=
  Cert.MatProduct.product (m ((c : Thread nD τ).loc main_arg0)) (m ((c : Thread nD τ).loc main_arg1))

/-- The array the grid reads as its second operand is H itself: the host's format conversion is the identity on the
    extended reals. -/
theorem converted_eq (c : Dev nD) :
    (V m c main_v0 : S4096x4096.Idx → EReal) = (m ((c : Thread nD τ).loc main_arg1) : S4096x4096.Idx → EReal) := by
  dsimp only [Gen.V, Gen.hostOps0]
  after_results
  rfl

/-- The grid's block indices, decided over the 64 points: x's block follows the result's row block and spans every
    column; H's block follows the result's column block and spans every row; the result's block indices stay in range. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 15 ∧ win0_2.index t (1 : Fin 2) ≤ 3 :=
  (by decide +kernel : ∀ t : Fin grid0.N, _)

/-- Every block (r, n) of the result is some point's. -/
theorem index_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- x's block at point t holds rows (row block)·512 … of x, every column. -/
theorem xblock_apply (c : Dev nD) (t : Fin cfg0.N) (u : S512x4096.Idx) (v : S8192x4096.Idx)
    (hv0 : (v 0).val = win0_2.index t (0 : Fin 2) * 512 + (u 0).val) (hv1 : (v 1).val = (u 1).val) :
    ((iblk m c 0 t : Vec Ideal S512x4096 .f32) u : EReal) = (m ((c : Thread nD τ).loc main_arg0) : S8192x4096.Idx → EReal) v := by
  obtain ⟨e0, e1, -, -, -, -⟩ := index_facts t
  unfold iblk
  rw [View.read_apply]
  show V m c main_arg0 _ = _
  rw [V_main_arg0]
  congr 1
  funext a
  apply Fin.ext
  match a with
  | ⟨0, _⟩ => show win0_0.index t (0 : Fin 2) * 512 + 1 * (u 0).val = (v 0).val; rw [e0, hv0]; omega
  | ⟨1, _⟩ => show win0_0.index t (1 : Fin 2) * 4096 + 1 * (u 1).val = (v 1).val; rw [e1, hv1]; omega

/-- H's block at point t holds columns (column block)·1024 … of H, every row. -/
theorem hblock_apply (c : Dev nD) (t : Fin cfg0.N) (u : S4096x1024.Idx) (v : S4096x4096.Idx)
    (hv0 : (v 0).val = (u 0).val) (hv1 : (v 1).val = win0_2.index t (1 : Fin 2) * 1024 + (u 1).val) :
    ((iblk m c 1 t : Vec Ideal S4096x1024 .bf16) u : EReal) = (m ((c : Thread nD τ).loc main_arg1) : S4096x4096.Idx → EReal) v := by
  obtain ⟨-, -, e2, e3, -, -⟩ := index_facts t
  unfold iblk
  rw [View.read_apply]
  show (V m c main_v0 : S4096x4096.Idx → EReal) _ = _
  rw [converted_eq]
  congr 1
  funext a
  apply Fin.ext
  match a with
  | ⟨0, _⟩ => show win0_1.index t (0 : Fin 2) * 4096 + 1 * (u 0).val = (v 0).val; rw [e2, hv0]; omega
  | ⟨1, _⟩ => show win0_1.index t (1 : Fin 2) * 1024 + 1 * (u 1).val = (v 1).val; rw [e3, hv1]; omega

/-- WHAT POINT t WRITES BACK is block t of the product of the argument arrays, when every entry of x is real. -/
theorem flushed_eq (hreal : ∀ (c : Dev nD) (i : S8192x4096.Idx), ∃ r : ℝ, ((m ((c : Thread nD τ).loc main_arg0) : S8192x4096.Idx → EReal) i) = (r : EReal))
    (c : Dev nD) (t : Fin cfg0.N) :
    (dats m 0 c).flushed 2 t = ((cfg0.win 2).blk t).view.read (Elt Ideal) (result m c) := by
  rw [flushed2]
  unfold out0_2
  rw [View.canon_unit_zero origin]
  simp only [View.ld_unit_zero (S := S512x4096) origin, View.ld_unit_zero (S := S4096x1024) origin]
  funext y
  show k0_pay1 (F := Ideal) (iblk m c 0 t) (iblk m c 1 t) y = result m c (((cfg0.win 2).blk t).view.emb y)
  refine Cert.KernelIdeal.Block.payload_eq_product _ _ (hreal c) (iblk m c 0 t) (iblk m c 1 t)
    (win0_2.index t (0 : Fin 2)) (win0_2.index t (1 : Fin 2))
    (fun u v h0 h1 => xblock_apply m c t u v h0 h1) (fun u v h0 h1 => hblock_apply m c t u v h0 h1) y _ ?_ ?_
  · show win0_2.index t (0 : Fin 2) * 512 + 1 * (y 0).val = _; omega
  · show win0_2.index t (1 : Fin 2) * 1024 + 1 * (y 1).val = _; omega

/-- An entry of the result array is in point t's block iff each coordinate is in the block's range on its axis. -/
theorem mem_block (t : Fin cfg0.N) (i : S8192x4096.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v1).slice (win0_2.rect t)).set ↔ _
  rw [View.set_slice_whole, Rect.mem_set_unit]
  exact Iff.rfl

/-- THE BLOCKS TILE THE RESULT: entry (i, j) lies in the block of the point whose block index is (i / 512, j / 1024). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- THE RESULT ARRAY after the run is the product of the argument arrays. -/
theorem final (hreal : ∀ (c : Dev nD) (i : S8192x4096.Idx), ∃ r : ℝ, ((m ((c : Thread nD τ).loc main_arg0) : S8192x4096.Idx → EReal) i) = (r : EReal))
    (c : Dev nD) : (dats m 0 c).arrAt 2 cfg0.N = result m c :=
  (dats m 0 c).arrAt_eq_of_cover 2 (result m c) (fun t _ => flushed_eq m hreal c t) covered

/-- THE KERNEL'S RUN, read: every weakly fair execution terminates with the result array at the product of the arguments
    and the arguments unchanged. -/
theorem run (hreal : ∀ (c : Dev nD) (i : S8192x4096.Idx), ∃ r : ℝ, ((m ((c : Thread nD τ).loc main_arg0) : S8192x4096.Idx → EReal) i) = (r : EReal)) :
    θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hreal c), (h c).2⟩) (run_blocks m ρ)

end Cert.KernelIdeal.Whole

end
-- ==== Proof.lean ====
/-
  A two-pass matrix product against one matrix product, equal on the extended reals for finite inputs.

  The kernel computes x · H for x : [8192, 4096] and a ±1 matrix H : [4096, 4096] in two passes: it splits x into a high
  part hi (x narrowed to a shorter float format) and the residual x − hi (narrowed likewise), multiplies each by H, and
  adds the two products, block by block over a 4 × 16 grid. The reference is the single product x · H.

  On the extended reals a change of float format is the identity, so hi = x and the residual is x − x. For a real x that
  is 0, the residual pass adds Σ_k 0 · H(k, c) = 0, and the kernel's entry (r, c) is Σ_k x(r, k) · H(k, c), the
  reference's. The finiteness of x is used exactly there (∞ − ∞ is not 0); nothing is asked of H.

  The parts: Product.lean (the product as one function of the two arrays, and the law Σ a·b + Σ (a − a)·b = Σ a·b for
  real a), ReferenceProduct.lean (the reference's result is that product), BlockProduct.lean (what the body computes
  from one block of x and one block of H is a block of the product), FiniteInput.lean (under the precondition every
  entry of x is real), KernelProduct.lean (the 64 blocks tile the result, so the kernel's result array is the product).
  The frames are the programs' runs with the result forgotten; the one recorded rewrite of the idealization, a
  narrowing followed by a widening replaced by the value itself, is the identity on the extended reals.
-/
import proofs.«110413_j4904852652181_2_alg».proof.Defs
import proofs.«110413_j4904852652181_2_alg».proof.Proof.Gen.Kernel
import proofs.«110413_j4904852652181_2_alg».proof.Proof.Gen.Kernel.Skeleton
import proofs.«110413_j4904852652181_2_alg».proof.Proof.Gen.Kernel.Launch
import proofs.«110413_j4904852652181_2_alg».proof.Proof.Gen.Kernel.Points
import proofs.«110413_j4904852652181_2_alg».proof.Proof.Gen.Kernel.Frame
import proofs.«110413_j4904852652181_2_alg».proof.Proof.Gen.KernelIdeal
import proofs.«110413_j4904852652181_2_alg».proof.Proof.Gen.KernelIdeal.Skeleton
import proofs.«110413_j4904852652181_2_alg».proof.Proof.Gen.KernelIdeal.Launch
import proofs.«110413_j4904852652181_2_alg».proof.Proof.Gen.KernelIdeal.Points
import proofs.«110413_j4904852652181_2_alg».proof.Proof.Gen.KernelIdeal.Frame
import proofs.«110413_j4904852652181_2_alg».proof.Proof.Gen.ReferenceIdeal
import proofs.«110413_j4904852652181_2_alg».proof.Proof.Gen.Pre_finite_inputs
import proofs.«110413_j4904852652181_2_alg».proof.Proof.Gen.KernelIdeal.Value
import proofs.«110413_j4904852652181_2_alg».proof.Proof.Gen.ReferenceIdeal.Run
import proofs.«110413_j4904852652181_2_alg».proof.Proof.Gen.ReferenceIdeal.Read
import proofs.«110413_j4904852652181_2_alg».proof.Proof.Product
import proofs.«110413_j4904852652181_2_alg».proof.Proof.ReferenceProduct
import proofs.«110413_j4904852652181_2_alg».proof.Proof.BlockProduct
import proofs.«110413_j4904852652181_2_alg».proof.Proof.FiniteInput
import proofs.«110413_j4904852652181_2_alg».proof.Proof.KernelProduct
import Idealize.ShloMosaic.Adequacy
import Idealize.ShloMosaic.Init

noncomputable section

namespace Cert.Proof

open Idealize.ShloMosaic Idealize.ShloMosaic.TcCoe Idealize.SL.Sem

/-- The kernel as printed runs to the end, faults nowhere, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: narrowing a [512, 4096] block to the shorter format and widening it back
    is replaced by the block itself, which on the extended reals it is. -/
theorem preserves : Cert.preserves_Kernel_KernelIdeal := IdealRules.truncf_extf.statement _ .f32 .bf16

/-- Both idealized programs end with the product of the argument arrays: the kernel because its 64 blocks are blocks of
    the product when x is real (KernelProduct.lean), the reference because its one operation is the product
    (ReferenceProduct.lean). -/
theorem algebraic : Cert.algebraic_KernelIdeal_ReferenceIdeal := by
  intro m ρ m' ρ' hpre hagree
  have hreal : ∀ (c : Dev Cert.KernelIdeal.nD) (i : Cert.KernelIdeal.S8192x4096.Idx),
      ∃ r : ℝ, ((m ((c : Thread Cert.KernelIdeal.nD Cert.KernelIdeal.τ).loc Cert.KernelIdeal.main_arg0) : Cert.KernelIdeal.S8192x4096.Idx → EReal) i) = (r : EReal) :=
    fun c i => Cert.Pre_finite_inputs.Finite.real_of_pre _ _ (hpre c) i
  refine ⟨fun c => Cert.KernelIdeal.Whole.result m c, Cert.KernelIdeal.Whole.run m ρ hreal, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq, Cert.ReferenceIdeal.RefProduct.stage_eq_product]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
